-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S16x3x512x512 : Shape := ⟨4, ![16, 3, 512, 512]⟩
abbrev S1x4x512x512 : Shape := ⟨4, ![1, 4, 512, 512]⟩
abbrev S1x3x512x512 : Shape := ⟨4, ![1, 3, 512, 512]⟩
abbrev S4x514x514 : Shape := ⟨3, ![4, 514, 514]⟩
abbrev S4x512x512 : Shape := ⟨3, ![4, 512, 512]⟩
abbrev S3x514x514 : Shape := ⟨3, ![3, 514, 514]⟩
abbrev S1x514x514 : Shape := ⟨3, ![1, 514, 514]⟩
abbrev S3x512x512 : Shape := ⟨3, ![3, 512, 512]⟩
abbrev S1x512x512 : Shape := ⟨3, ![1, 512, 512]⟩

abbrev nBuf : Space → Nat
  | .hbm => 2
  | .vmem => 5
  | .smem => 0
  | _ => 0

abbrev bufTy : (tb : Table) → Fin (tcTables nBuf tb) → BufTy
  | .hbm, ⟨0, _⟩ => ⟨S16x4x512x512, .f32⟩
  | .hbm, ⟨1, _⟩ => ⟨S16x3x512x512, .f32⟩
  | .local _ .vmem, ⟨0, _⟩ => ⟨S1x4x512x512, .f32⟩
  | .local _ .vmem, ⟨1, _⟩ => ⟨S1x4x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S4x514x514, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x514x514_S4x514x514_0_0_0 : ∀ a, (![0, 0, 0] : Fin 3 → Nat) a + S4x514x514.size a ≤ S4x514x514.size a
  h_S4x514x514 : 0 < S4x514x514.numel
  shapeCasts_S4x514x514_S4x514x514 : S4x514x514.ShapeCasts S4x514x514
  inb_S1x4x512x512_S1x4x512x512_0_0_0_0 : ∀ a, (![0, 0, 0, 0] : Fin 4 → Nat) a + S1x4x512x512.size a ≤ S1x4x512x512.size a
  h_S1x4x512x512 : 0 < S1x4x512x512.numel
  shapeCasts_S1x4x512x512_S4x512x512 : S1x4x512x512.ShapeCasts S4x512x512
  inb_S4x514x514_S4x512x512_0_1_1 : ∀ a, (![0, 1, 1] : Fin 3 → Nat) a + S4x512x512.size a ≤ S4x514x514.size a
  h_S4x512x512 : 0 < S4x512x512.numel
  shapeCasts_S4x512x512_S4x512x512 : S4x512x512.ShapeCasts S4x512x512
  inb_S4x514x514_S3x514x514_0_0_0 : ∀ a, (![0, 0, 0] : Fin 3 → Nat) a + S3x514x514.size a ≤ S4x514x514.size a
  h_S3x514x514 : 0 < S3x514x514.numel
  inb_S4x514x514_S1x514x514_3_0_0 : ∀ a, (![3, 0, 0] : Fin 3 → Nat) a + S1x514x514.size a ≤ S4x514x514.size a
  h_S1x514x514 : 0 < S1x514x514.numel
  slices_S3x514x514_o0_0_0_S3x512x512 : S3x514x514.Slices ![0, 0, 0] S3x512x512
  slices_S1x514x514_o0_0_0_S1x512x512 : S1x514x514.Slices ![0, 0, 0] S1x512x512
  broadcasts_S1x512x512_S3x512x512 : S1x512x512.Broadcasts S3x512x512
  slices_S3x514x514_o0_0_1_S3x512x512 : S3x514x514.Slices ![0, 0, 1] S3x512x512
  slices_S1x514x514_o0_0_1_S1x512x512 : S1x514x514.Slices ![0, 0, 1] S1x512x512
  slices_S3x514x514_o0_0_2_S3x512x512 : S3x514x514.Slices ![0, 0, 2] S3x512x512
  slices_S1x514x514_o0_0_2_S1x512x512 : S1x514x514.Slices ![0, 0, 2] S1x512x512
  slices_S3x514x514_o0_1_0_S3x512x512 : S3x514x514.Slices ![0, 1, 0] S3x512x512
  slices_S1x514x514_o0_1_0_S1x512x512 : S1x514x514.Slices ![0, 1, 0] S1x512x512
  slices_S3x514x514_o0_1_1_S3x512x512 : S3x514x514.Slices ![0, 1, 1] S3x512x512
  slices_S1x514x514_o0_1_1_S1x512x512 : S1x514x514.Slices ![0, 1, 1] S1x512x512
  slices_S3x514x514_o0_1_2_S3x512x512 : S3x514x514.Slices ![0, 1, 2] S3x512x512
  slices_S1x514x514_o0_1_2_S1x512x512 : S1x514x514.Slices ![0, 1, 2] S1x512x512
  slices_S3x514x514_o0_2_0_S3x512x512 : S3x514x514.Slices ![0, 2, 0] S3x512x512
  slices_S1x514x514_o0_2_0_S1x512x512 : S1x514x514.Slices ![0, 2, 0] S1x512x512
  slices_S3x514x514_o0_2_1_S3x512x512 : S3x514x514.Slices ![0, 2, 1] S3x512x512
  slices_S1x514x514_o0_2_1_S1x512x512 : S1x514x514.Slices ![0, 2, 1] S1x512x512
  slices_S3x514x514_o0_2_2_S3x512x512 : S3x514x514.Slices ![0, 2, 2] S3x512x512
  slices_S1x514x514_o0_2_2_S1x512x512 : S1x514x514.Slices ![0, 2, 2] S1x512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  shapeCasts_S3x512x512_S1x3x512x512 : S3x512x512.ShapeCasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S16x4x512x512.size a
  hwx0_0 : ∀ i : grid0.Coords, EltTy.bits .f32 = 32 ∨ (Rect.block (s := S16x4x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S16x3x512x512 : Shape := ⟨4, ![16, 3, 512, 512]⟩
abbrev S16x1x512x512 : Shape := ⟨4, ![16, 1, 512, 512]⟩
abbrev S_ : Shape := ⟨0, ![]⟩
abbrev S16x3x514x514 : Shape := ⟨4, ![16, 3, 514, 514]⟩
abbrev S16x3x1x512x512 : Shape := ⟨5, ![16, 3, 1, 512, 512]⟩
abbrev S16x3x9x512x512 : Shape := ⟨5, ![16, 3, 9, 512, 512]⟩
abbrev S16x1x514x514 : Shape := ⟨4, ![16, 1, 514, 514]⟩
abbrev S16x1x1x512x512 : Shape := ⟨5, ![16, 1, 1, 512, 512]⟩
abbrev S16x1x9x512x512 : Shape := ⟨5, ![16, 1, 9, 512, 512]⟩

abbrev nBuf : Space → Nat
  | .hbm => 51
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S16x3x512x512, .f32⟩
  | .hbm, ⟨2, _⟩ => ⟨S16x1x512x512, .f32⟩
  | .hbm, ⟨3, _⟩ => ⟨S_, .i32⟩
  | .hbm, ⟨4, _⟩ => ⟨S_, .f32⟩
  | .hbm, ⟨5, _⟩ => ⟨S16x3x514x514, .f32⟩
  | .hbm, ⟨6, _⟩ => ⟨S16x3x512x512, .f32⟩
  | .hbm, ⟨7, _⟩ => ⟨S16x3x512x512, .f32⟩
  | .hbm, ⟨8, _⟩ => ⟨S16x3x512x512, .f32⟩
  | .hbm, ⟨9, _⟩ => ⟨S16x3x512x512, .f32⟩
  | .hbm, ⟨10, _⟩ => ⟨S16x3x512x512, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S16x3x512x512, .f32⟩
  | .hbm, ⟨15, _⟩ => ⟨S16x3x1x512x512, .f32⟩
  | .hbm, ⟨16, _⟩ => ⟨S16x3x1x512x512, .f32⟩
  | .hbm, ⟨17, _⟩ => ⟨S16x3x1x512x512, .f32⟩
  | .hbm, ⟨18, _⟩ => ⟨S16x3x1x512x512, .f32⟩
  | .hbm, ⟨19, _⟩ => ⟨S16x3x1x512x512, .f32⟩
  | .hbm, ⟨20, _⟩ => ⟨S16x3x1x512x512, .f32⟩
  | .hbm, ⟨21, _⟩ => ⟨S16x3x1x512x512, .f32⟩
  | .hbm, ⟨22, _⟩ => ⟨S16x3x1x512x512, .f32⟩
  | .hbm, ⟨23, _⟩ => ⟨S16x3x1x512x512, .f32⟩
  | .hbm, ⟨24, _⟩ => ⟨S16x3x9x512x512, .f32⟩
  | .hbm, ⟨25, _⟩ => ⟨S_, .i32⟩
  | .hbm, ⟨26, _⟩ => ⟨S_, .f32⟩
  | .hbm, ⟨27, _⟩ => ⟨S16x1x514x514, .f32⟩
  | .hbm, ⟨28, _⟩ => ⟨S16x1x512x512, .f32⟩
  | .hbm, ⟨29, _⟩ => ⟨S16x1x512x512, .f32⟩
  | .hbm, ⟨30, _⟩ => ⟨S16x1x512x512, .f32⟩
  | .hbm, ⟨31, _⟩ => ⟨S16x1x512x512, .f32⟩
  | .hbm, ⟨32, _⟩ => ⟨S16x1x512x512, .f32⟩
  | .hbm, ⟨33, _⟩ => ⟨S16x1x512x512, .f32⟩
  | .hbm, ⟨34, _⟩ => ⟨S16x1x512x512, .f32⟩
  | .hbm, ⟨35, _⟩ => ⟨S16x1x512x512, .f32⟩
  | .hbm, ⟨36, _⟩ => ⟨S16x1x512x512, .f32⟩
  | .hbm, ⟨37, _⟩ => ⟨S16x1x1x512x512, .f32⟩
  | .hbm, ⟨38, _⟩ => ⟨S16x1x1x512x512, .f32⟩
  | .hbm, ⟨39, _⟩ => ⟨S16x1x1x512x512, .f32⟩
  | .hbm, ⟨40, _⟩ => ⟨S16x1x1x512x512, .f32⟩
  | .hbm, ⟨41, _⟩ => ⟨S16x1x1x512x512, .f32⟩
  | .hbm, ⟨42, _⟩ => ⟨S16x1x1x512x512, .f32⟩
  | .hbm, ⟨43, _⟩ => ⟨S16x1x1x512x512, .f32⟩
  | .hbm, ⟨44, _⟩ => ⟨S16x1x1x512x512, .f32⟩
  | .hbm, ⟨45, _⟩ => ⟨S16x1x1x512x512, .f32⟩
  | .hbm, ⟨46, _⟩ => ⟨S16x1x9x512x512, .f32⟩
  | .hbm, ⟨47, _⟩ => ⟨S16x3x9x512x512, .f32⟩
  | .hbm, ⟨48, _⟩ => ⟨S16x3x9x512x512, .f32⟩
  | .hbm, ⟨49, _⟩ => ⟨S_, .f32⟩
  | .hbm, ⟨50, _⟩ => ⟨S16x3x512x512, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_call1_v0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst : Ref sig .tc := ⟨.hbm, 49, rfl⟩
abbrev main_v44 : Ref sig .tc := ⟨.hbm, 50, rfl⟩

abbrev nD : Nat := 1
abbrev τ : Topo := Topo.v7x

variable {F : FTy → Type} [FloatOps F]

class Facts₀ : Prop where
  slices_S16x4x512x512_S16x3x512x512_0_0_0_0 : S16x4x512x512.Slices ![0, 0, 0, 0] S16x3x512x512
  slices_S16x4x512x512_S16x1x512x512_0_3_0_0 : S16x4x512x512.Slices ![0, 3, 0, 0] S16x1x512x512
  pads_S16x3x512x512_S16x3x514x514_000_000_110_110 : S16x3x512x512.Pads (![0, 0, 1, 1] : Fin 4 → Nat) ![0, 0, 1, 1] ![0, 0, 0, 0] S16x3x514x514
  h_S_ : 0 < S_.numel
  slices_S16x3x514x514_S16x3x512x512_0_0_0_0 : S16x3x514x514.Slices ![0, 0, 0, 0] S16x3x512x512
  slices_S16x3x514x514_S16x3x512x512_0_0_0_1 : S16x3x514x514.Slices ![0, 0, 0, 1] S16x3x512x512
  slices_S16x3x514x514_S16x3x512x512_0_0_0_2 : S16x3x514x514.Slices ![0, 0, 0, 2] S16x3x512x512
  slices_S16x3x514x514_S16x3x512x512_0_0_1_0 : S16x3x514x514.Slices ![0, 0, 1, 0] S16x3x512x512
  slices_S16x3x514x514_S16x3x512x512_0_0_1_1 : S16x3x514x514.Slices ![0, 0, 1, 1] S16x3x512x512
  slices_S16x3x514x514_S16x3x512x512_0_0_1_2 : S16x3x514x514.Slices ![0, 0, 1, 2] S16x3x512x512
  slices_S16x3x514x514_S16x3x512x512_0_0_2_0 : S16x3x514x514.Slices ![0, 0, 2, 0] S16x3x512x512
  slices_S16x3x514x514_S16x3x512x512_0_0_2_1 : S16x3x514x514.Slices ![0, 0, 2, 1] S16x3x512x512
  slices_S16x3x514x514_S16x3x512x512_0_0_2_2 : S16x3x514x514.Slices ![0, 0, 2, 2] S16x3x512x512
  bcast_S16x3x512x512_S16x3x1x512x512_0_1_3_4 : S16x3x512x512.BroadcastsInDim S16x3x1x512x512 (![0, 1, 3, 4] : Fin 4 → Fin S16x3x1x512x512.rank)
  concatenates_S16x3x1x512x512_S16x3x1x512x512_S16x3x1x512x512_S16x3x1x512x512_S16x3x1x512x512_S16x3x1x512x512_S16x3x1x512x512_S16x3x1x512x512_S16x3x1x512x512_S16x3x9x512x512_d2 : Shape.Concatenates [S16x3x1x512x512, S16x3x1x512x512, S16x3x1x512x512, S16x3x1x512x512, S16x3x1x512x512, S16x3x1x512x512, S16x3x1x512x512, S16x3x1x512x512, S16x3x1x512x512] S16x3x9x512x512 2
  pads_S16x1x512x512_S16x1x514x514_000_000_110_110 : S16x1x512x512.Pads (![0, 0, 1, 1] : Fin 4 → Nat) ![0, 0, 1, 1] ![0, 0, 0, 0] S16x1x514x514
  slices_S16x1x514x514_S16x1x512x512_0_0_0_0 : S16x1x514x514.Slices ![0, 0, 0, 0] S16x1x512x512
  slices_S16x1x514x514_S16x1x512x512_0_0_0_1 : S16x1x514x514.Slices ![0, 0, 0, 1] S16x1x512x512
  slices_S16x1x514x514_S16x1x512x512_0_0_0_2 : S16x1x514x514.Slices ![0, 0, 0, 2] S16x1x512x512
  slices_S16x1x514x514_S16x1x512x512_0_0_1_0 : S16x1x514x514.Slices ![0, 0, 1, 0] S16x1x512x512
  slices_S16x1x514x514_S16x1x512x512_0_0_1_1 : S16x1x514x514.Slices ![0, 0, 1, 1] S16x1x512x512
  slices_S16x1x514x514_S16x1x512x512_0_0_1_2 : S16x1x514x514.Slices ![0, 0, 1, 2] S16x1x512x512
  slices_S16x1x514x514_S16x1x512x512_0_0_2_0 : S16x1x514x514.Slices ![0, 0, 2, 0] S16x1x512x512
  slices_S16x1x514x514_S16x1x512x512_0_0_2_1 : S16x1x514x514.Slices ![0, 0, 2, 1] S16x1x512x512
  slices_S16x1x514x514_S16x1x512x512_0_0_2_2 : S16x1x514x514.Slices ![0, 0, 2, 2] S16x1x512x512
  bcast_S16x1x512x512_S16x1x1x512x512_0_1_3_4 : S16x1x512x512.BroadcastsInDim S16x1x1x512x512 (![0, 1, 3, 4] : Fin 4 → Fin S16x1x1x512x512.rank)
  concatenates_S16x1x1x512x512_S16x1x1x512x512_S16x1x1x512x512_S16x1x1x512x512_S16x1x1x512x512_S16x1x1x512x512_S16x1x1x512x512_S16x1x1x512x512_S16x1x1x512x512_S16x1x9x512x512_d2 : Shape.Concatenates [S16x1x1x512x512, S16x1x1x512x512, S16x1x1x512x512, S16x1x1x512x512, S16x1x1x512x512, S16x1x1x512x512, S16x1x1x512x512, S16x1x1x512x512, S16x1x1x512x512] S16x1x9x512x512 2
  bcast_S16x1x9x512x512_S16x3x9x512x512_0_1_2_3_4 : S16x1x9x512x512.BroadcastsInDim S16x3x9x512x512 (![0, 1, 2, 3, 4] : Fin 5 → Fin S16x3x9x512x512.rank)
  reducesTo_S16x3x9x512x512_S16x3x512x512_d2 : S16x3x9x512x512.ReducesTo [2] S16x3x512x512

variable [Facts₀]

class Facts : Prop extends Facts₀ where

variable [Facts]
-- ==== Proof.Taps.lean ====
/-
  The mathematics both programs compute, with no program in sight.

  An image has four channels over a 512 x 512 grid. Put a one-pixel border of zeros around each channel, so that the
  bordered channel lives on a 514 x 514 frame: frame position (r, s) holds pixel (r - 1, s - 1) when 1 <= r, s <= 512
  and zero on the border. For a colour channel c in {0, 1, 2} and an output pixel (h, w), the result is the sum over
  the nine frame positions (h + i, w + j), 0 <= i, j <= 2, of the bordered colour channel times the bordered fourth
  channel at that position: the fourth channel's own 3 x 3 neighbourhood is the filter applied to each colour channel.

  The nine products are added in reading order (i outer, j inner). Addition of extended reals is commutative and
  associative without exception, so any other order or grouping of the same nine terms, and a leading zero, give the
  same sum: that is the only law the two programs' agreement rests on, and it needs no finiteness.
-/
import Idealize.ShloMosaic.PureOps.Ideal
import Idealize.ShloMosaic.Lib.ValueIdx

noncomputable section

namespace Cert.Taps

open Idealize.ShloMosaic Idealize.ShloMosaic.ValueIdx
open scoped BigOperators

/-- `B` four-channel 512 x 512 images. -/
abbrev Img (B : ℕ) : Shape := ⟨4, ![B, 4, 512, 512]⟩
/-- `B` three-channel 512 x 512 results. -/
abbrev Res (B : ℕ) : Shape := ⟨4, ![B, 3, 512, 512]⟩

variable {B : ℕ}

/-- Channel `ch` of image `b` with its border of zeros, at frame position `(r, s)`. -/
def bordered (X : (Img B).Idx → EReal) (b : Fin B) (ch : Fin 4) (r s : ℕ) : EReal :=
  if h : (1 ≤ r ∧ r ≤ 512) ∧ (1 ≤ s ∧ s ≤ 512) then
    X (ix4 b ch (⟨r - 1, by omega⟩ : Fin 512) (⟨s - 1, by omega⟩ : Fin 512))
  else 0

/-- A value that is the pixel inside the frame's interior and zero on its border is the bordered channel there. -/
theorem eq_bordered (X : (Img B).Idx → EReal) (b : Fin B) (ch : Fin 4) (r s : ℕ) (v : EReal)
    (hin : ∀ h : (1 ≤ r ∧ r ≤ 512) ∧ (1 ≤ s ∧ s ≤ 512),
      v = X (ix4 b ch (⟨r - 1, by omega⟩ : Fin 512) (⟨s - 1, by omega⟩ : Fin 512)))
    (hout : ¬((1 ≤ r ∧ r ≤ 512) ∧ (1 ≤ s ∧ s ≤ 512)) → v = 0) : v = bordered X b ch r s := by
  unfold bordered
  by_cases h : (1 ≤ r ∧ r ≤ 512) ∧ (1 ≤ s ∧ s ≤ 512)
  · rw [dif_pos h]; exact hin h
  · rw [dif_neg h]; exact hout h

/-- Two batches that agree on one image each have the same bordered channels there. -/
theorem bordered_congr {B' : ℕ} (X : (Img B).Idx → EReal) (Y : (Img B').Idx → EReal) (b : Fin B) (b' : Fin B')
    (hXY : ∀ (ch : Fin 4) (r s : Fin 512), X (ix4 b ch r s) = Y (ix4 b' ch r s)) (ch : Fin 4) (r s : ℕ) :
    bordered X b ch r s = bordered Y b' ch r s := by
  unfold bordered
  by_cases h : (1 ≤ r ∧ r ≤ 512) ∧ (1 ≤ s ∧ s ≤ 512)
  · rw [dif_pos h, dif_pos h]; exact hXY _ _ _
  · rw [dif_neg h, dif_neg h]

/-- One tap: colour channel `c` times the fourth channel, both bordered, at frame position `(r, s)`. -/
def tap (X : (Img B).Idx → EReal) (b : Fin B) (c : Fin 3) (r s : ℕ) : EReal :=
  bordered X b ⟨c.val, Nat.lt_of_lt_of_le c.isLt (by decide)⟩ r s * bordered X b 3 r s

/-- The nine taps of the window whose top-left frame position is `(h, w)`, added in reading order. -/
def win (X : (Img B).Idx → EReal) (b : Fin B) (c : Fin 3) (h w : ℕ) : EReal :=
  tap X b c (h + 0) (w + 0) + tap X b c (h + 0) (w + 1) + tap X b c (h + 0) (w + 2)
    + tap X b c (h + 1) (w + 0) + tap X b c (h + 1) (w + 1) + tap X b c (h + 1) (w + 2)
    + tap X b c (h + 2) (w + 0) + tap X b c (h + 2) (w + 1) + tap X b c (h + 2) (w + 2)

theorem win_congr {B' : ℕ} (X : (Img B).Idx → EReal) (Y : (Img B').Idx → EReal) (b : Fin B) (b' : Fin B')
    (hXY : ∀ (ch : Fin 4) (r s : Fin 512), X (ix4 b ch r s) = Y (ix4 b' ch r s)) (c : Fin 3) (h w : ℕ) :
    win X b c h w = win Y b' c h w := by
  unfold win tap
  simp only [bordered_congr X Y b b' hXY]

/-- The result: every output pixel is its window's sum. -/
def G (X : (Img B).Idx → EReal) : (Res B).Idx → EReal := fun j =>
  win X ⟨(j 0).val, (j 0).isLt⟩ ⟨(j 1).val, (j 1).isLt⟩ (j 2).val (j 3).val

theorem G_apply (X : (Img B).Idx → EReal) (b : Fin B) (c : Fin 3) (h w : Fin 512) :
    G X (ix4 b c h w) = win X b c h.val w.val := rfl

/-- A sum over nine indices, written out. -/
theorem sum_nine {M : Type*} [AddCommMonoid M] (f : Fin 9 → M) :
    ∑ k : Fin 9, f k = f 0 + f 1 + f 2 + f 3 + f 4 + f 5 + f 6 + f 7 + f 8 := by
  rw [Fin.sum_univ_castSucc, Fin.sum_univ_eight]; rfl

/-- The taps numbered `k = 3 i + j` and summed from zero are the window's sum. -/
theorem zero_add_sum_taps (X : (Img B).Idx → EReal) (b : Fin B) (c : Fin 3) (h w : ℕ) :
    (0 : EReal) + ∑ k : Fin 9, tap X b c (h + k.val / 3) (w + k.val % 3) = win X b c h w := by
  rw [sum_nine, zero_add]; rfl

end Cert.Taps

end
-- ==== Proof.Scratch.lean ====
/-
  A buffer of shape [4, 514, 514] is first filled whole and then has its interior, the rectangle of shape [4, 512, 512]
  at offsets (0, 1, 1), overwritten. Read back at position (ch, r, s), it holds the interior store's value at
  (ch, r - 1, s - 1) when 1 <= r, s <= 512, and the fill's value at (ch, r, s) on the one-pixel border: the later store
  wins where it reaches, the earlier one shows through everywhere else.
-/
import Idealize.ShloMosaic.Lib.Pipeline.Value
import Idealize.ShloMosaic.Lib.ValueIdx

noncomputable section

namespace Cert.Scratch

open Idealize.ShloMosaic Idealize.ShloMosaic.ValueIdx

variable {Val : EltTy → Type} [∀ e, Nonempty (Val e)] {e : EltTy}

/-- The bordered frame and its interior. -/
abbrev Frame : Shape := ⟨3, ![4, 514, 514]⟩
abbrev Inner : Shape := ⟨3, ![4, 512, 512]⟩

theorem zero3 : (![0, 0, 0] : Fin 3 → ℕ) = fun _ => 0 := funext fun a => by fin_cases a <;> rfl
theorem zero4 : (![0, 0, 0, 0] : Fin 4 → ℕ) = fun _ => 0 := funext fun a => by fin_cases a <;> rfl

/-- Inside the interior the last store's value is read, whatever was stored before. -/
theorem canon_inside (inb1 : ∀ a, (![0, 1, 1] : Fin 3 → ℕ) a + Inner.size a ≤ Frame.size a)
    (W : Inner.Idx → Val e) (L : List (View.Piece Val Frame e)) (ch : Fin 4) (r s : Fin 514)
    (h : (1 ≤ r.val ∧ r.val ≤ 512) ∧ (1 ≤ s.val ∧ s.val ≤ 512)) :
    View.canon ((⟨Rect.unit (s := Frame) ![0, 1, 1] Inner.size inb1, W⟩ : View.Piece Val Frame e) :: L) (ix3 ch r s)
      = W (ix3 ch (⟨r.val - 1, by omega⟩ : Fin 512) (⟨s.val - 1, by omega⟩ : Fin 512)) := by
  have e1 : (ix3 ch r s : Frame.Idx)
      = (Rect.unit (s := Frame) ![0, 1, 1] Inner.size inb1).emb (ix3 ch (⟨r.val - 1, by omega⟩ : Fin 512) (⟨s.val - 1, by omega⟩ : Fin 512)) := by
    funext a; apply Fin.ext
    match a with
    | ⟨0, _⟩ => show ch.val = 0 + 1 * ch.val; omega
    | ⟨1, _⟩ => show r.val = 1 + 1 * (r.val - 1); omega
    | ⟨2, _⟩ => show s.val = 1 + 1 * (s.val - 1); omega
  rw [e1]
  exact View.canon_cons_emb (Rect.unit (s := Frame) ![0, 1, 1] Inner.size inb1) W L _

/-- On the border the interior store does not reach, and the whole fill before it is read. -/
theorem canon_border (inb1 : ∀ a, (![0, 1, 1] : Fin 3 → ℕ) a + Inner.size a ≤ Frame.size a)
    (inb0 : ∀ a, (![0, 0, 0] : Fin 3 → ℕ) a + Frame.size a ≤ Frame.size a)
    (W : Inner.Idx → Val e) (Z : Frame.Idx → Val e) (ch : Fin 4) (r s : Fin 514)
    (h : ¬((1 ≤ r.val ∧ r.val ≤ 512) ∧ (1 ≤ s.val ∧ s.val ≤ 512))) :
    View.canon [(⟨Rect.unit (s := Frame) ![0, 1, 1] Inner.size inb1, W⟩ : View.Piece Val Frame e),
        (⟨Rect.unit (s := Frame) ![0, 0, 0] Frame.size inb0, Z⟩ : View.Piece Val Frame e)] (ix3 ch r s)
      = Z (ix3 ch r s) := by
  have hnm : (ix3 ch r s : Frame.Idx) ∉ (Rect.unit (s := Frame) ![0, 1, 1] Inner.size inb1).set := by
    intro hm
    have hm' := Rect.mem_set_unit.mp hm
    have h1 : 1 ≤ r.val ∧ r.val < 1 + 512 := hm' 1
    have h2 : 1 ≤ s.val ∧ s.val < 1 + 512 := hm' 2
    exact h ⟨⟨h1.1, by omega⟩, ⟨h2.1, by omega⟩⟩
  rw [View.canon_cons_of_not_mem (⟨Rect.unit (s := Frame) ![0, 1, 1] Inner.size inb1, W⟩ : View.Piece Val Frame e) _ hnm,
    View.canon_unit_zero zero3]

end Cert.Scratch

end
-- ==== Proof.KernelBlock.lean ====
/-
  What the kernel's body leaves in one output block, as a function of the one input block it loads.

  The body fills its [4, 514, 514] scratch buffer with zeros, writes the loaded image (four channels, 512 x 512) into
  the interior at offsets (0, 1, 1), and reads the buffer back as the three colour slabs and the fourth-channel slab:
  those slabs are the channels with their one-pixel border of zeros. It then multiplies, for each of the nine offsets
  (i, j), the colour slabs shifted by (i, j) with the fourth-channel slab shifted by (i, j) (one slab against all three
  colours), and adds the nine products in reading order, starting from the product at (0, 0). The block it stores is
  therefore the window sum of the specification, over a batch of one image.
-/
import proofs.«127842_j6313601925505_2_alg».proof.Proof.Gen.KernelIdeal.Frame
import proofs.«127842_j6313601925505_2_alg».proof.Proof.Taps
import proofs.«127842_j6313601925505_2_alg».proof.Proof.Scratch
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem
open Idealize.ShloMosaic.ValueIdx Cert.Taps

/-! ## The shifted slabs read at a pixel -/

/-- The colour slabs shifted by `(i, j)`, at colour `c` and pixel `(h, w)`: frame position `(h + i, w + j)`. -/
theorem colour_slice (v9 : Vec Ideal S3x514x514 .f32) (i j : ℕ) (hi : i + 512 ≤ 514) (hj : j + 512 ≤ 514)
    (hs : S3x514x514.Slices ![0, i, j] S3x512x512) (c : Fin 3) (h w : Fin 512) :
    extractStridedSlice S3x512x512 ![0, i, j] v9 hs (ix3 c h w)
      = v9 (ix3 c (⟨h.val + i, by omega⟩ : Fin 514) (⟨w.val + j, by omega⟩ : Fin 514)) :=
  extractStridedSlice_apply ![0, i, j] v9 hs (ix3 c h w) _ (fun a => by
    match a with
    | ⟨0, _⟩ => show c.val = 0 + c.val; omega
    | ⟨1, _⟩ => show h.val + i = i + h.val; omega
    | ⟨2, _⟩ => show w.val + j = j + w.val; omega)

/-- The fourth-channel slab shifted by `(i, j)` and repeated for the three colours, at any colour and pixel `(h, w)`. -/
theorem fourth_slice (v10 : Vec Ideal S1x514x514 .f32) (i j : ℕ) (hi : i + 512 ≤ 514) (hj : j + 512 ≤ 514)
    (hs : S1x514x514.Slices ![0, i, j] S1x512x512) (hb : S1x512x512.Broadcasts S3x512x512) (c : Fin 3) (h w : Fin 512) :
    broadcastTo S3x512x512 (extractStridedSlice S1x512x512 ![0, i, j] v10 hs) hb (ix3 c h w)
      = v10 (ix3 (0 : Fin 1) (⟨h.val + i, by omega⟩ : Fin 514) (⟨w.val + j, by omega⟩ : Fin 514)) := by
  refine (broadcastTo_apply _ hb (ix3 c h w) (ix3 (0 : Fin 1) h w) (fun a => ?_)).trans ?_
  · match a with
    | ⟨0, _⟩ => show (0 : ℕ) = if (1 : ℕ) = 1 then 0 else c.val; rw [if_pos rfl]
    | ⟨1, _⟩ => show h.val = if (512 : ℕ) = 1 then 0 else h.val; rw [if_neg (by decide)]
    | ⟨2, _⟩ => show w.val = if (512 : ℕ) = 1 then 0 else w.val; rw [if_neg (by decide)]
  · exact extractStridedSlice_apply ![0, i, j] v10 hs (ix3 (0 : Fin 1) h w)
      (ix3 (0 : Fin 1) (⟨h.val + i, by omega⟩ : Fin 514) (⟨w.val + j, by omega⟩ : Fin 514)) (fun a => by
      match a with
      | ⟨0, _⟩ => show (0 : ℕ) = 0 + 0; omega
      | ⟨1, _⟩ => show h.val + i = i + h.val; omega
      | ⟨2, _⟩ => show w.val + j = j + w.val; omega)

/-! ## The stored value at a pixel -/

/-- If the two slabs are the bordered channels of the loaded image, the stored block is the window sum. -/
theorem payload_eq (x0 : (Img 1).Idx → EReal) (v9 : Vec Ideal S3x514x514 .f32) (v10 : Vec Ideal S1x514x514 .f32)
    (h9 : ∀ (c : Fin 3) (r s : Fin 514),
      v9 (ix3 c r s) = bordered (B := 1) x0 0 ⟨c.val, Nat.lt_of_lt_of_le c.isLt (by decide)⟩ r.val s.val)
    (h10 : ∀ r s : Fin 514, v10 (ix3 (0 : Fin 1) r s) = bordered (B := 1) x0 0 3 r.val s.val) :
    k0_pay1 (F := Ideal) v9 v10 (k0_pay4 v9 v10) = Taps.G (B := 1) x0 := by
  funext y
  obtain ⟨u, c, h, w, rfl⟩ : ∃ (u : Fin 1) (c : Fin 3) (h w : Fin 512), y = ix4 u c h w :=
    ⟨y 0, y 1, y 2, y 3, eq_ix4 y⟩
  obtain rfl : u = 0 := Subsingleton.elim _ _
  rw [Taps.G_apply]
  unfold k0_pay1 k0_pay4
  refine (shapeCast_abc_1abc_apply _ _ 0 c h w).trans ?_
  simp only [addf_apply, mulf_apply]
  rw [colour_slice v9 0 0 (by decide) (by decide), fourth_slice v10 0 0 (by decide) (by decide),
    colour_slice v9 0 1 (by decide) (by decide), fourth_slice v10 0 1 (by decide) (by decide),
    colour_slice v9 0 2 (by decide) (by decide), fourth_slice v10 0 2 (by decide) (by decide),
    colour_slice v9 1 0 (by decide) (by decide), fourth_slice v10 1 0 (by decide) (by decide),
    colour_slice v9 1 1 (by decide) (by decide), fourth_slice v10 1 1 (by decide) (by decide),
    colour_slice v9 1 2 (by decide) (by decide), fourth_slice v10 1 2 (by decide) (by decide),
    colour_slice v9 2 0 (by decide) (by decide), fourth_slice v10 2 0 (by decide) (by decide),
    colour_slice v9 2 1 (by decide) (by decide), fourth_slice v10 2 1 (by decide) (by decide),
    colour_slice v9 2 2 (by decide) (by decide), fourth_slice v10 2 2 (by decide) (by decide)]
  simp only [h9, h10]
  rfl

/-! ## The scratch buffer read back -/

/-- The interior store's value is the loaded image with its leading unit axis dropped. -/
theorem interior_apply (x0 : Vec Ideal S1x4x512x512 .f32) (ch : Fin 4) (r s : Fin 512) :
    k0_pay3 (F := Ideal) x0 (ix3 ch r s) = x0 (ix4 (0 : Fin 1) ch r s) := by
  unfold k0_pay3
  simp only [shapeCast_self]
  exact shapeCast_1abc_abc_apply x0 _ ch r s

/-- The fill's value is zero everywhere. -/
theorem fill_apply (y : S4x514x514.Idx) : k0_pay2 (F := Ideal) y = 0 := by
  unfold k0_pay2
  simp only [shapeCast_self]
  exact Ideal.ofBits_zero_f32

/-- The scratch buffer after the fill and the interior store holds the loaded image's bordered channels. -/
theorem scratch_at (x0 : Vec Ideal S1x4x512x512 .f32)
    (inb1 : ∀ a, (![0, 1, 1] : Fin 3 → ℕ) a + S4x512x512.size a ≤ S4x514x514.size a)
    (inb0 : ∀ a, (![0, 0, 0] : Fin 3 → ℕ) a + S4x514x514.size a ≤ S4x514x514.size a)
    (ch : Fin 4) (r s : Fin 514) :
    View.canon [(⟨Rect.unit (s := S4x514x514) ![0, 1, 1] S4x512x512.size inb1, k0_pay3 (F := Ideal) x0⟩ : View.Piece (Elt Ideal) S4x514x514 .f32),
        (⟨Rect.unit (s := S4x514x514) ![0, 0, 0] S4x514x514.size inb0, k0_pay2 (F := Ideal)⟩ : View.Piece (Elt Ideal) S4x514x514 .f32)] (ix3 ch r s)
      = bordered (B := 1) x0 0 ch r.val s.val := by
  refine eq_bordered (B := 1) x0 0 ch r.val s.val _ (fun h => ?_) (fun h => ?_)
  · have h1 := Cert.Scratch.canon_inside (Val := Elt Ideal) (e := .f32) inb1 (k0_pay3 (F := Ideal) x0)
      [(⟨Rect.unit (s := S4x514x514) ![0, 0, 0] S4x514x514.size inb0, k0_pay2 (F := Ideal)⟩ : View.Piece (Elt Ideal) S4x514x514 .f32)] ch r s h
    have h2 := interior_apply x0 ch (⟨r.val - 1, by omega⟩ : Fin 512) (⟨s.val - 1, by omega⟩ : Fin 512)
    exact h1.trans h2
  · have h1 := Cert.Scratch.canon_border (Val := Elt Ideal) (e := .f32) inb1 inb0 (k0_pay3 (F := Ideal) x0) (k0_pay2 (F := Ideal)) ch r s h
    exact h1.trans (fill_apply _)

/-- The three colour slabs loaded back from the scratch buffer. -/
theorem scratch_colour (x0 : Vec Ideal S1x4x512x512 .f32) (v : View sig .tc .vmem S4x514x514 .f32)
    (inb1 : ∀ a, (![0, 1, 1] : Fin 3 → ℕ) a + S4x512x512.size a ≤ S4x514x514.size a)
    (inb0 : ∀ a, (![0, 0, 0] : Fin 3 → ℕ) a + S4x514x514.size a ≤ S4x514x514.size a)
    (inb9 : ∀ a, (![0, 0, 0] : Fin 3 → ℕ) a + S3x514x514.size a ≤ S4x514x514.size a)
    (c : Fin 3) (r s : Fin 514) :
    v.readCov [(⟨Rect.unit (s := S4x514x514) ![0, 1, 1] S4x512x512.size inb1, k0_pay3 (F := Ideal) x0⟩ : View.Piece (Elt Ideal) S4x514x514 .f32),
        (⟨Rect.unit (s := S4x514x514) ![0, 0, 0] S4x514x514.size inb0, k0_pay2 (F := Ideal)⟩ : View.Piece (Elt Ideal) S4x514x514 .f32)]
        (Rect.unit (s := S4x514x514) ![0, 0, 0] S3x514x514.size inb9).toLoadRect (ix3 c r s)
      = bordered (B := 1) x0 0 ⟨c.val, Nat.lt_of_lt_of_le c.isLt (by decide)⟩ r.val s.val := by
  have e : (Rect.unit (s := S4x514x514) ![0, 0, 0] S3x514x514.size inb9).toLoadRect.idx (ix3 c r s)
      = (ix3 (⟨c.val, Nat.lt_of_lt_of_le c.isLt (by decide)⟩ : Fin 4) r s : S4x514x514.Idx) := by
    funext a; apply Fin.ext
    match a with
    | ⟨0, _⟩ => show 0 + 1 * c.val = c.val; omega
    | ⟨1, _⟩ => show 0 + 1 * r.val = r.val; omega
    | ⟨2, _⟩ => show 0 + 1 * s.val = s.val; omega
  rw [View.readCov_eq_canon']
  show View.canon _ ((Rect.unit (s := S4x514x514) ![0, 0, 0] S3x514x514.size inb9).toLoadRect.idx (ix3 c r s)) = _
  rw [e]
  exact scratch_at x0 inb1 inb0 (⟨c.val, Nat.lt_of_lt_of_le c.isLt (by decide)⟩ : Fin 4) r s

/-- The fourth-channel slab loaded back from the scratch buffer. -/
theorem scratch_fourth (x0 : Vec Ideal S1x4x512x512 .f32) (v : View sig .tc .vmem S4x514x514 .f32)
    (inb1 : ∀ a, (![0, 1, 1] : Fin 3 → ℕ) a + S4x512x512.size a ≤ S4x514x514.size a)
    (inb0 : ∀ a, (![0, 0, 0] : Fin 3 → ℕ) a + S4x514x514.size a ≤ S4x514x514.size a)
    (inb10 : ∀ a, (![3, 0, 0] : Fin 3 → ℕ) a + S1x514x514.size a ≤ S4x514x514.size a)
    (r s : Fin 514) :
    v.readCov [(⟨Rect.unit (s := S4x514x514) ![0, 1, 1] S4x512x512.size inb1, k0_pay3 (F := Ideal) x0⟩ : View.Piece (Elt Ideal) S4x514x514 .f32),
        (⟨Rect.unit (s := S4x514x514) ![0, 0, 0] S4x514x514.size inb0, k0_pay2 (F := Ideal)⟩ : View.Piece (Elt Ideal) S4x514x514 .f32)]
        (Rect.unit (s := S4x514x514) ![3, 0, 0] S1x514x514.size inb10).toLoadRect (ix3 (0 : Fin 1) r s)
      = bordered (B := 1) x0 0 3 r.val s.val := by
  have e : (Rect.unit (s := S4x514x514) ![3, 0, 0] S1x514x514.size inb10).toLoadRect.idx (ix3 (0 : Fin 1) r s)
      = (ix3 (3 : Fin 4) r s : S4x514x514.Idx) := by
    funext a; apply Fin.ext
    match a with
    | ⟨0, _⟩ => show 3 + 1 * 0 = 3; omega
    | ⟨1, _⟩ => show 0 + 1 * r.val = r.val; omega
    | ⟨2, _⟩ => show 0 + 1 * s.val = s.val; omega
  rw [View.readCov_eq_canon']
  show View.canon _ ((Rect.unit (s := S4x514x514) ![3, 0, 0] S1x514x514.size inb10).toLoadRect.idx (ix3 (0 : Fin 1) r s)) = _
  rw [e]
  exact scratch_at x0 inb1 inb0 (3 : Fin 4) r s

/-! ## The block -/

/-- What the body leaves in the output's staging buffer is the window sum over the one loaded image. -/
theorem block_eq (c : Dev nD) (i : grid0.Coords) (arg1 : Memref sig .tc .vmem S1x4x512x512 .f32) (harg1 : arg1.IsWhole)
    (arg2 : Memref sig .tc .vmem S1x3x512x512 .f32) (harg2 : arg2.IsWhole)
    (arg3 : Memref sig .tc .vmem S4x514x514 .f32) (harg3 : arg3.IsWhole) (x0 : Vec Ideal S1x4x512x512 .f32) :
    out0_A_1 (F := Ideal) c i arg1 harg1 arg2 harg2 arg3 harg3 x0 = Taps.G (B := 1) x0 := by
  unfold out0_A_1
  rw [View.read_writes_eq_canon _ _ _ (cover0_A_1 c i arg1 harg1 arg2 harg2 arg3 harg3 x0)]
  unfold kernelRun0_A
  dsimp only
  try sl_unfold_words
  rw [View.canon_unit_zero Cert.Scratch.zero4]
  simp only [View.readAt_eq_ld, harg1.read_unread, View.ld_unit_zero (S := S1x4x512x512) Cert.Scratch.zero4]
  exact payload_eq x0 _ _ (fun c r s => scratch_colour x0 arg3.view _ _ _ c r s)
    (fun r s => scratch_fourth x0 arg3.view _ _ _ r s)

end Cert.KernelIdeal.Block

end
-- ==== Proof.KernelArray.lean ====
/-
  From the blocks to the whole result array.

  The grid has sixteen points, one per image of the batch: at point t the input block is image t (all four channels,
  all pixels) and the output block is result t (all three colours, all pixels). Every point writes its output block
  back, the sixteen blocks tile the result array, and each is the window sum over its own image; so after the run the
  result array is the window sum of the specification over the whole batch, and the argument array is unchanged.
-/
import proofs.«127842_j6313601925505_2_alg».proof.Proof.Gen.KernelIdeal.Value
import proofs.«127842_j6313601925505_2_alg».proof.Proof.KernelBlock

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.ValueIdx Cert.Taps
open Idealize.ShloMosaic.Pipeline (Dat)

variable (m : (ℓ : Loc nD τ sig) → Buf (Elt Ideal) ℓ) (ρ : Dev nD → PrngReg)

/-- The printed index maps, decided over the sixteen grid points: point `t`'s input and output blocks sit at block
    index `t` along the batch axis and at block index zero along the other three. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- A grid point names an image of the batch. -/
theorem point_lt (t : Fin cfg0.N) : t.val < 16 := by
  have h : t.val < grid0.N := t.isLt
  have hN : grid0.N = 16 := N_0
  omega

/-- The input block at point `t` is image `t` of the argument array. -/
theorem iblk_apply (c : Dev nD) (t : Fin cfg0.N) (ch : Fin 4) (r s : Fin 512) :
    (iblk m c 0 t : Vec Ideal S1x4x512x512 .f32) (ix4 (0 : Fin 1) ch r s)
      = (m ((c : Thread nD τ).loc main_arg0) : S16x4x512x512.Idx → EReal) (ix4 (⟨t.val, point_lt t⟩ : Fin 16) ch r s) := by
  obtain ⟨e0, e1, e2, e3, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = t.val; rw [e0]; omega
  | ⟨1, _⟩ => show win0_0.index t (1 : Fin 4) * 4 + 1 * ch.val = ch.val; rw [e1]; omega
  | ⟨2, _⟩ => show win0_0.index t (2 : Fin 4) * 512 + 1 * r.val = r.val; rw [e2]; omega
  | ⟨3, _⟩ => show win0_0.index t (3 : Fin 4) * 512 + 1 * s.val = s.val; rw [e3]; omega

/-- What point `t` writes back is block `t` of the window sum over the whole argument array. -/
theorem flushed_eq (c : Dev nD) (t : Fin cfg0.N) :
    (dats m 0 c).flushed 1 t
      = ((cfg0.win 1).blk t).view.read (Elt Ideal) (Taps.G (B := 16) (m ((c : Thread nD τ).loc main_arg0))) := by
  rw [Cert.KernelIdeal.Value.flushed1_A, Cert.KernelIdeal.Block.block_eq]
  obtain ⟨-, -, -, -, e0, e1, e2, e3⟩ := idx_facts t
  funext y
  obtain ⟨u, k, h, w, rfl⟩ : ∃ (u : Fin 1) (k : Fin 3) (h w : Fin 512), y = ix4 u k h w :=
    ⟨y 0, y 1, y 2, y 3, eq_ix4 y⟩
  obtain rfl : u = 0 := Subsingleton.elim _ _
  rw [View.read_apply]
  have e : ((cfg0.win 1).blk t).view.emb (ix4 (0 : Fin 1) k h w)
      = (ix4 (⟨t.val, point_lt t⟩ : Fin 16) k h w : S16x3x512x512.Idx) := by
    funext a
    apply Fin.ext
    match a with
    | ⟨0, _⟩ => show win0_1.index t (0 : Fin 4) * 1 + 1 * 0 = t.val; rw [e0]; omega
    | ⟨1, _⟩ => show win0_1.index t (1 : Fin 4) * 3 + 1 * k.val = k.val; rw [e1]; omega
    | ⟨2, _⟩ => show win0_1.index t (2 : Fin 4) * 512 + 1 * h.val = h.val; rw [e2]; omega
    | ⟨3, _⟩ => show win0_1.index t (3 : Fin 4) * 512 + 1 * w.val = w.val; rw [e3]; omega
  show Taps.G (B := 1) (iblk m c 0 t) (ix4 (0 : Fin 1) k h w)
    = Taps.G (B := 16) (m ((c : Thread nD τ).loc main_arg0)) (((cfg0.win 1).blk t).view.emb (ix4 (0 : Fin 1) k h w))
  rw [e, Taps.G_apply, Taps.G_apply]
  exact Taps.win_congr (B := 1) (B' := 16) (iblk m c 0 t) (m ((c : Thread nD τ).loc main_arg0)) 0
    (⟨t.val, point_lt t⟩ : Fin 16) (fun ch r s => iblk_apply m c t ch r s) k h.val w.val

/-- An index of the result array is in point `t`'s block iff each coordinate is in the block's range on its axis. -/
theorem mem_blk (t : Fin cfg0.N) (i : S16x3x512x512.Idx) :
    i ∈ ((cfg0.win 1).blk t).view.set ↔ ∀ a : Fin 4, win0_1.index t a * S1x3x512x512.size a ≤ (i a).val
      ∧ (i a).val < win0_1.index t a * S1x3x512x512.size a + S1x3x512x512.size a := by
  show i ∈ ((View.whole main_v0).slice (win0_1.rect t)).set ↔ _
  rw [View.set_slice_whole, Rect.mem_set_unit]
  exact Iff.rfl

/-- Every index of the result array is in the block of the point its batch coordinate names. -/
theorem covered (i : S16x3x512x512.Idx) :
    ∃ t : Fin cfg0.N, (cfg0.win 1).flush t = true ∧ i ∈ ((cfg0.win 1).blk t).view.set := by
  have hN : grid0.N = 16 := N_0
  have hi0 : (i 0).val < 16 := (i 0).isLt
  have hlt : (i 0).val < cfg0.N := by show (i 0).val < grid0.N; omega
  have hi1 : (i 1).val < 3 := (i 1).isLt
  have hi2 : (i 2).val < 512 := (i 2).isLt
  have hi3 : (i 3).val < 512 := (i 3).isLt
  refine ⟨⟨(i 0).val, hlt⟩, flush0_1 _, ?_⟩
  rw [mem_blk]
  obtain ⟨-, -, -, -, e0, e1, e2, e3⟩ := idx_facts ⟨(i 0).val, hlt⟩
  have e0' : win0_1.index ⟨(i 0).val, hlt⟩ (0 : Fin 4) = (i 0).val := e0
  intro a
  match a with
  | ⟨0, _⟩ =>
    show win0_1.index ⟨(i 0).val, _⟩ (0 : Fin 4) * 1 ≤ (i 0).val ∧ (i 0).val < win0_1.index ⟨(i 0).val, _⟩ (0 : Fin 4) * 1 + 1
    rw [e0']; omega
  | ⟨1, _⟩ =>
    show win0_1.index ⟨(i 0).val, _⟩ (1 : Fin 4) * 3 ≤ (i 1).val ∧ (i 1).val < win0_1.index ⟨(i 0).val, _⟩ (1 : Fin 4) * 3 + 3
    rw [e1]; omega
  | ⟨2, _⟩ =>
    show win0_1.index ⟨(i 0).val, _⟩ (2 : Fin 4) * 512 ≤ (i 2).val ∧ (i 2).val < win0_1.index ⟨(i 0).val, _⟩ (2 : Fin 4) * 512 + 512
    rw [e2]; omega
  | ⟨3, _⟩ =>
    show win0_1.index ⟨(i 0).val, _⟩ (3 : Fin 4) * 512 ≤ (i 3).val ∧ (i 3).val < win0_1.index ⟨(i 0).val, _⟩ (3 : Fin 4) * 512 + 512
    rw [e3]; omega

/-- The result array after the run is the window sum over the argument array. -/
theorem final (c : Dev nD) :
    (dats m 0 c).arrAt 1 cfg0.N = Taps.G (B := 16) (m ((c : Thread nD τ).loc main_arg0)) :=
  (dats m 0 c).arrAt_eq_of_cover 1 (Taps.G (B := 16) (m ((c : Thread nD τ).loc main_arg0)))
    (fun t _ => flushed_eq m c t) covered

/-- The kernel's run: the result array ends at the window sum of the argument array, which is unchanged. -/
theorem run : θ_run defs (onTc (τ := τ) (main (F := Ideal))) ⟨m, fun _ => 0, ρ⟩ fun r => ∀ c : Dev nD,
      r.2.mem ((c : Thread nD τ).loc main_v0) = Taps.G (B := 16) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result, index by index, is the window sum of the specification.

  The reference cuts the image into its three colour channels and its fourth channel, pads each with a one-pixel border
  of zeros (the padding value is the integer 0 converted to a float, which is the real 0), takes the nine 512 x 512
  sub-images of each padded array at offsets (i, j), 0 <= i, j <= 2, stacks them along a new axis in the order
  k = 3 i + j, multiplies the colour stack by the fourth channel's stack (the same for all three colours), and sums
  over the stacking axis starting from zero. So at colour c and pixel (h, w) it computes
  0 + sum over k of bordered colour (h + k / 3, w + k % 3) * bordered fourth channel (h + k / 3, w + k % 3).
-/
import proofs.«127842_j6313601925505_2_alg».proof.Proof.Gen.ReferenceIdeal.Read
import proofs.«127842_j6313601925505_2_alg».proof.Proof.Taps
import Idealize.ShloMosaic.Lib.KernelVsHost

noncomputable section

namespace Cert.ReferenceIdeal.RefValue

open Cert.ReferenceIdeal Cert.ReferenceIdeal.Gen Cert.ReferenceIdeal.Read
open Idealize.ShloMosaic Idealize.ShloMosaic.ValueIdx Cert.Taps
open scoped BigOperators

/-! ## A zero-padded array read at an index -/

/-- Inside the padded frame's interior the pad reads the operand one step up and to the left. -/
theorem pad_inside {C : ℕ} (x : (⟨4, ![16, C, 512, 512]⟩ : Shape).Idx → EReal) {u : Shape} (v : u.Idx → EReal)
    (hp : (⟨4, ![16, C, 512, 512]⟩ : Shape).Pads ![0, 0, 1, 1] ![0, 0, 1, 1] ![0, 0, 0, 0] ⟨4, ![16, C, 514, 514]⟩)
    (hu : 0 < u.numel) (b : Fin 16) (c : Fin C) (r s : Fin 514)
    (h : (1 ≤ r.val ∧ r.val ≤ 512) ∧ (1 ≤ s.val ∧ s.val ≤ 512)) :
    pad ⟨4, ![16, C, 514, 514]⟩ ![0, 0, 1, 1] ![0, 0, 1, 1] ![0, 0, 0, 0] x v hp hu (ix4 b c r s)
      = x (ix4 b c (⟨r.val - 1, by omega⟩ : Fin 512) (⟨s.val - 1, by omega⟩ : Fin 512)) :=
  pad_apply_of_inside _ _ _ x v hp hu (ix4 b c r s) _ (fun a => by
    match a with
    | ⟨0, _⟩ => show b.val = 0 + b.val * (0 + 1); omega
    | ⟨1, _⟩ => show c.val = 0 + c.val * (0 + 1); omega
    | ⟨2, _⟩ => show r.val = 1 + (r.val - 1) * (0 + 1); omega
    | ⟨3, _⟩ => show s.val = 1 + (s.val - 1) * (0 + 1); omega)

/-- On the border it reads the padding value. -/
theorem pad_border {C : ℕ} (x : (⟨4, ![16, C, 512, 512]⟩ : Shape).Idx → EReal) {u : Shape} (v : u.Idx → EReal)
    (hp : (⟨4, ![16, C, 512, 512]⟩ : Shape).Pads ![0, 0, 1, 1] ![0, 0, 1, 1] ![0, 0, 0, 0] ⟨4, ![16, C, 514, 514]⟩)
    (hu : 0 < u.numel) (b : Fin 16) (c : Fin C) (r s : Fin 514)
    (h : ¬((1 ≤ r.val ∧ r.val ≤ 512) ∧ (1 ≤ s.val ∧ s.val ≤ 512))) :
    pad ⟨4, ![16, C, 514, 514]⟩ ![0, 0, 1, 1] ![0, 0, 1, 1] ![0, 0, 0, 0] x v hp hu (ix4 b c r s)
      = v (Shape.Idx.first hu) := by
  by_cases hr : 1 ≤ r.val ∧ r.val ≤ 512
  · refine pad_apply_of_not_inside _ _ _ x v hp hu (ix4 b c r s) 3 (fun hh => h ⟨hr, ?_⟩)
    have hh' : 1 ≤ s.val ∧ (s.val - 1) % (0 + 1) = 0 ∧ (s.val - 1) / (0 + 1) < 512 := hh
    omega
  · refine pad_apply_of_not_inside _ _ _ x v hp hu (ix4 b c r s) 2 (fun hh => hr ?_)
    have hh' : 1 ≤ r.val ∧ (r.val - 1) % (0 + 1) = 0 ∧ (r.val - 1) / (0 + 1) < 512 := hh
    omega

/-- The integer zero converted to a float is zero. -/
theorem sitofp_zero_f32 : FloatOps.sitofp (F := Ideal) .f32 (0#32 : BitVec 32) = (0 : EReal) := by
  show ((((0#32 : BitVec 32).toInt : ℤ) : ℝ) : EReal) = 0
  simp

/-- The padded colour channels are the bordered colour channels. -/
theorem padded_colour (X : S16x4x512x512.Idx → EReal) (b : Fin 16) (c : Fin 3) (r s : Fin 514) :
    val_main_v2 (F := Ideal) X (ix4 b c r s)
      = bordered (B := 16) X b ⟨c.val, Nat.lt_of_lt_of_le c.isLt (by decide)⟩ r.val s.val := by
  refine eq_bordered (B := 16) X b _ r.val s.val _ (fun h => ?_) (fun h => ?_)
  · unfold val_main_v2
    rw [pad_inside (C := 3) _ _ _ _ b c r s h, val_main_v0_apply]
    exact congrArg X (funext fun a => Fin.ext (by
      match a with | ⟨0, _⟩ => rfl | ⟨1, _⟩ => rfl | ⟨2, _⟩ => rfl | ⟨3, _⟩ => rfl))
  · unfold val_main_v2
    rw [pad_border (C := 3) _ _ _ _ b c r s h]
    exact sitofp_zero_f32

/-- The padded fourth channel is the bordered fourth channel. -/
theorem padded_fourth (X : S16x4x512x512.Idx → EReal) (b : Fin 16) (r s : Fin 514) :
    val_main_v22 (F := Ideal) X (ix4 b (0 : Fin 1) r s) = bordered (B := 16) X b 3 r.val s.val := by
  refine eq_bordered (B := 16) X b _ r.val s.val _ (fun h => ?_) (fun h => ?_)
  · unfold val_main_v22
    rw [pad_inside (C := 1) _ _ _ _ b 0 r s h, val_main_v1_apply]
    exact congrArg X (funext fun a => Fin.ext (by
      match a with | ⟨0, _⟩ => rfl | ⟨1, _⟩ => rfl | ⟨2, _⟩ => rfl | ⟨3, _⟩ => rfl))
  · unfold val_main_v22
    rw [pad_border (C := 1) _ _ _ _ b 0 r s h]
    exact sitofp_zero_f32

/-! ## The nine shifted planes stacked along a new axis -/

variable {α : Type}

/-- Nine arrays of extent one along the stacking axis, joined along it: position `k` on that axis reads piece `k`. -/
theorem stack_apply {C : ℕ} (f : Fin 9 → (⟨5, ![16, C, 1, 512, 512]⟩ : Shape).Idx → α)
    (hc : Shape.Concatenates ([(⟨⟨5, ![16, C, 1, 512, 512]⟩, f 0⟩ : (s : Shape) × (s.Idx → α)), ⟨⟨5, ![16, C, 1, 512, 512]⟩, f 1⟩,
      ⟨⟨5, ![16, C, 1, 512, 512]⟩, f 2⟩, ⟨⟨5, ![16, C, 1, 512, 512]⟩, f 3⟩, ⟨⟨5, ![16, C, 1, 512, 512]⟩, f 4⟩,
      ⟨⟨5, ![16, C, 1, 512, 512]⟩, f 5⟩, ⟨⟨5, ![16, C, 1, 512, 512]⟩, f 6⟩, ⟨⟨5, ![16, C, 1, 512, 512]⟩, f 7⟩,
      ⟨⟨5, ![16, C, 1, 512, 512]⟩, f 8⟩].map (·.1)) ⟨5, ![16, C, 9, 512, 512]⟩ 2)
    (b : Fin 16) (c : Fin C) (k : Fin 9) (h w : Fin 512) :
    concatenate ⟨5, ![16, C, 9, 512, 512]⟩ 2 [⟨⟨5, ![16, C, 1, 512, 512]⟩, f 0⟩, ⟨⟨5, ![16, C, 1, 512, 512]⟩, f 1⟩,
      ⟨⟨5, ![16, C, 1, 512, 512]⟩, f 2⟩, ⟨⟨5, ![16, C, 1, 512, 512]⟩, f 3⟩, ⟨⟨5, ![16, C, 1, 512, 512]⟩, f 4⟩,
      ⟨⟨5, ![16, C, 1, 512, 512]⟩, f 5⟩, ⟨⟨5, ![16, C, 1, 512, 512]⟩, f 6⟩, ⟨⟨5, ![16, C, 1, 512, 512]⟩, f 7⟩,
      ⟨⟨5, ![16, C, 1, 512, 512]⟩, f 8⟩] hc (ix5 b c k h w) = f k (ix5 b c (0 : Fin 1) h w) := by
  have hoff : ∀ (k : Fin 9) (a : Fin 5), a ≠ 2 → ((ix5 b c (0 : Fin 1) h w : (⟨5, ![16, C, 1, 512, 512]⟩ : Shape).Idx) a).val
      = ((ix5 b c k h w : (⟨5, ![16, C, 9, 512, 512]⟩ : Shape).Idx) a).val := fun k a => by
    match a with
    | ⟨0, _⟩ => exact fun _ => rfl
    | ⟨1, _⟩ => exact fun _ => rfl
    | ⟨2, _⟩ => exact fun hne => absurd rfl hne
    | ⟨3, _⟩ => exact fun _ => rfl
    | ⟨4, _⟩ => exact fun _ => rfl
  match k with
  | ⟨0, hk⟩ => exact concatenate_apply_piece 2 _ hc _ 0 (by show (0 : ℕ) < 9; omega) _ (f 0) rfl rfl 0 rfl _ (hoff ⟨0, hk⟩) rfl
  | ⟨1, hk⟩ => exact concatenate_apply_piece 2 _ hc _ 1 (by show (1 : ℕ) < 9; omega) _ (f 1) rfl rfl 1 rfl _ (hoff ⟨1, hk⟩) rfl
  | ⟨2, hk⟩ => exact concatenate_apply_piece 2 _ hc _ 2 (by show (2 : ℕ) < 9; omega) _ (f 2) rfl rfl 2 rfl _ (hoff ⟨2, hk⟩) rfl
  | ⟨3, hk⟩ => exact concatenate_apply_piece 2 _ hc _ 3 (by show (3 : ℕ) < 9; omega) _ (f 3) rfl rfl 3 rfl _ (hoff ⟨3, hk⟩) rfl
  | ⟨4, hk⟩ => exact concatenate_apply_piece 2 _ hc _ 4 (by show (4 : ℕ) < 9; omega) _ (f 4) rfl rfl 4 rfl _ (hoff ⟨4, hk⟩) rfl
  | ⟨5, hk⟩ => exact concatenate_apply_piece 2 _ hc _ 5 (by show (5 : ℕ) < 9; omega) _ (f 5) rfl rfl 5 rfl _ (hoff ⟨5, hk⟩) rfl
  | ⟨6, hk⟩ => exact concatenate_apply_piece 2 _ hc _ 6 (by show (6 : ℕ) < 9; omega) _ (f 6) rfl rfl 6 rfl _ (hoff ⟨6, hk⟩) rfl
  | ⟨7, hk⟩ => exact concatenate_apply_piece 2 _ hc _ 7 (by show (7 : ℕ) < 9; omega) _ (f 7) rfl rfl 7 rfl _ (hoff ⟨7, hk⟩) rfl
  | ⟨8, hk⟩ => exact concatenate_apply_piece 2 _ hc _ 8 (by show (8 : ℕ) < 9; omega) _ (f 8) rfl rfl 8 rfl _ (hoff ⟨8, hk⟩) rfl

/-- One plane of the stack: the sub-image of a padded array at offsets `(i, j)`, given a unit stacking axis. -/
theorem plane_apply {C : ℕ} (Y : (⟨4, ![16, C, 514, 514]⟩ : Shape).Idx → α) (i j : ℕ) (hi : i + 512 ≤ 514) (hj : j + 512 ≤ 514)
    (hs : (⟨4, ![16, C, 514, 514]⟩ : Shape).Slices ![0, 0, i, j] ⟨4, ![16, C, 512, 512]⟩)
    (hb : (⟨4, ![16, C, 512, 512]⟩ : Shape).BroadcastsInDim ⟨5, ![16, C, 1, 512, 512]⟩ ![0, 1, 3, 4])
    (b : Fin 16) (c : Fin C) (h w : Fin 512) :
    broadcastInDim ⟨5, ![16, C, 1, 512, 512]⟩ ![0, 1, 3, 4] hb
        (extractStridedSlice ⟨4, ![16, C, 512, 512]⟩ ![0, 0, i, j] Y hs) (ix5 b c (0 : Fin 1) h w)
      = Y (ix4 b c (⟨h.val + i, by omega⟩ : Fin 514) (⟨w.val + j, by omega⟩ : Fin 514)) := by
  refine (broadcastInDim_apply _ hb _ (ix5 b c (0 : Fin 1) h w) (ix4 b c h w) (fun a => ?_)).trans ?_
  · match a with
    | ⟨0, _⟩ => show b.val = if (16 : ℕ) = 1 then 0 else b.val; rw [if_neg (by decide)]
    | ⟨1, _⟩ =>
      show c.val = if C = 1 then 0 else c.val
      by_cases h1 : C = 1
      · rw [if_pos h1]; have := c.isLt; omega
      · rw [if_neg h1]
    | ⟨2, _⟩ => show h.val = if (512 : ℕ) = 1 then 0 else h.val; rw [if_neg (by decide)]
    | ⟨3, _⟩ => show w.val = if (512 : ℕ) = 1 then 0 else w.val; rw [if_neg (by decide)]
  · exact extractStridedSlice_apply ![0, 0, i, j] Y hs (ix4 b c h w)
      (ix4 b c (⟨h.val + i, by omega⟩ : Fin 514) (⟨w.val + j, by omega⟩ : Fin 514)) (fun a => by
      match a with
      | ⟨0, _⟩ => show b.val = 0 + b.val; omega
      | ⟨1, _⟩ => show c.val = 0 + c.val; omega
      | ⟨2, _⟩ => show h.val + i = i + h.val; omega
      | ⟨3, _⟩ => show w.val + j = j + w.val; omega)

/-! ## The reference's result -/

/-- Plane `k` of the colour stack is the padded colour array at offsets `(k / 3, k % 3)`. -/
theorem colour_plane (X : S16x4x512x512.Idx → EReal) (b : Fin 16) (c : Fin 3) (k : Fin 9) (h w : Fin 512) :
    val_main_v21 (F := Ideal) X (ix5 b c k h w)
      = val_main_v2 (F := Ideal) X (ix4 b c (⟨h.val + k.val / 3, by have := k.isLt; omega⟩ : Fin 514)
          (⟨w.val + k.val % 3, by omega⟩ : Fin 514)) := by
  unfold val_main_v21
  refine (stack_apply (C := 3) ![val_main_v12 (F := Ideal) X, val_main_v13 (F := Ideal) X, val_main_v14 (F := Ideal) X,
    val_main_v15 (F := Ideal) X, val_main_v16 (F := Ideal) X, val_main_v17 (F := Ideal) X, val_main_v18 (F := Ideal) X,
    val_main_v19 (F := Ideal) X, val_main_v20 (F := Ideal) X] _ b c k h w).trans ?_
  obtain ⟨k, hk⟩ := k
  show _ = val_main_v2 (F := Ideal) X (ix4 b c (⟨h.val + k / 3, by omega⟩ : Fin 514) (⟨w.val + k % 3, by omega⟩ : Fin 514))
  interval_cases k
  · exact plane_apply (C := 3) (val_main_v2 (F := Ideal) X) 0 0 (by decide) (by decide) (by decide) (by decide) b c h w
  · exact plane_apply (C := 3) (val_main_v2 (F := Ideal) X) 0 1 (by decide) (by decide) (by decide) (by decide) b c h w
  · exact plane_apply (C := 3) (val_main_v2 (F := Ideal) X) 0 2 (by decide) (by decide) (by decide) (by decide) b c h w
  · exact plane_apply (C := 3) (val_main_v2 (F := Ideal) X) 1 0 (by decide) (by decide) (by decide) (by decide) b c h w
  · exact plane_apply (C := 3) (val_main_v2 (F := Ideal) X) 1 1 (by decide) (by decide) (by decide) (by decide) b c h w
  · exact plane_apply (C := 3) (val_main_v2 (F := Ideal) X) 1 2 (by decide) (by decide) (by decide) (by decide) b c h w
  · exact plane_apply (C := 3) (val_main_v2 (F := Ideal) X) 2 0 (by decide) (by decide) (by decide) (by decide) b c h w
  · exact plane_apply (C := 3) (val_main_v2 (F := Ideal) X) 2 1 (by decide) (by decide) (by decide) (by decide) b c h w
  · exact plane_apply (C := 3) (val_main_v2 (F := Ideal) X) 2 2 (by decide) (by decide) (by decide) (by decide) b c h w

/-- Plane `k` of the fourth channel's stack is the padded fourth channel at offsets `(k / 3, k % 3)`. -/
theorem fourth_plane (X : S16x4x512x512.Idx → EReal) (b : Fin 16) (k : Fin 9) (h w : Fin 512) :
    val_main_v41 (F := Ideal) X (ix5 b (0 : Fin 1) k h w)
      = val_main_v22 (F := Ideal) X (ix4 b (0 : Fin 1) (⟨h.val + k.val / 3, by have := k.isLt; omega⟩ : Fin 514)
          (⟨w.val + k.val % 3, by omega⟩ : Fin 514)) := by
  unfold val_main_v41
  refine (stack_apply (C := 1) ![val_main_v32 (F := Ideal) X, val_main_v33 (F := Ideal) X, val_main_v34 (F := Ideal) X,
    val_main_v35 (F := Ideal) X, val_main_v36 (F := Ideal) X, val_main_v37 (F := Ideal) X, val_main_v38 (F := Ideal) X,
    val_main_v39 (F := Ideal) X, val_main_v40 (F := Ideal) X] _ b 0 k h w).trans ?_
  obtain ⟨k, hk⟩ := k
  show _ = val_main_v22 (F := Ideal) X (ix4 b (0 : Fin 1) (⟨h.val + k / 3, by omega⟩ : Fin 514) (⟨w.val + k % 3, by omega⟩ : Fin 514))
  interval_cases k
  · exact plane_apply (C := 1) (val_main_v22 (F := Ideal) X) 0 0 (by decide) (by decide) (by decide) (by decide) b (0 : Fin 1) h w
  · exact plane_apply (C := 1) (val_main_v22 (F := Ideal) X) 0 1 (by decide) (by decide) (by decide) (by decide) b (0 : Fin 1) h w
  · exact plane_apply (C := 1) (val_main_v22 (F := Ideal) X) 0 2 (by decide) (by decide) (by decide) (by decide) b (0 : Fin 1) h w
  · exact plane_apply (C := 1) (val_main_v22 (F := Ideal) X) 1 0 (by decide) (by decide) (by decide) (by decide) b (0 : Fin 1) h w
  · exact plane_apply (C := 1) (val_main_v22 (F := Ideal) X) 1 1 (by decide) (by decide) (by decide) (by decide) b (0 : Fin 1) h w
  · exact plane_apply (C := 1) (val_main_v22 (F := Ideal) X) 1 2 (by decide) (by decide) (by decide) (by decide) b (0 : Fin 1) h w
  · exact plane_apply (C := 1) (val_main_v22 (F := Ideal) X) 2 0 (by decide) (by decide) (by decide) (by decide) b (0 : Fin 1) h w
  · exact plane_apply (C := 1) (val_main_v22 (F := Ideal) X) 2 1 (by decide) (by decide) (by decide) (by decide) b (0 : Fin 1) h w
  · exact plane_apply (C := 1) (val_main_v22 (F := Ideal) X) 2 2 (by decide) (by decide) (by decide) (by decide) b (0 : Fin 1) h w

/-- The reference's last stage is the specification: at every colour and pixel, zero plus the sum over the nine
    stacked planes of colour times fourth channel is the window sum. -/
theorem result_eq (X : S16x4x512x512.Idx → EReal) : val_main_v44 (F := Ideal) X = Taps.G (B := 16) X := by
  funext y
  obtain ⟨b, c, h, w, rfl⟩ : ∃ (b : Fin 16) (c : Fin 3) (h w : Fin 512), y = ix4 b c h w :=
    ⟨y 0, y 1, y 2, y 3, eq_ix4 y⟩
  rw [val_main_v44_apply, Taps.G_apply, ← Taps.zero_add_sum_taps]
  refine congrArg₂ (· + ·) ?_ (Finset.sum_congr rfl fun k _ => ?_)
  · exact Ideal.ofBits_zero_f32
  · have e1 : idx_main_v44 (ix4 b c h w) k = ix5 b c k h w := funext fun a => Fin.ext (by
      match a with | ⟨0, _⟩ => rfl | ⟨1, _⟩ => rfl | ⟨2, _⟩ => rfl | ⟨3, _⟩ => rfl | ⟨4, _⟩ => rfl)
    have e2 : idx_main_v42 (ix5 b c k h w) = ix5 b (0 : Fin 1) k h w := funext fun a => Fin.ext (by
      match a with | ⟨0, _⟩ => rfl | ⟨1, _⟩ => rfl | ⟨2, _⟩ => rfl | ⟨3, _⟩ => rfl | ⟨4, _⟩ => rfl)
    rw [e1, val_main_v43_apply, val_main_v42_apply, e2, colour_plane, fourth_plane, padded_colour, padded_fourth]
    rfl

end Cert.ReferenceIdeal.RefValue

end
-- ==== Proof.lean ====
/-
  The kernel and its reference compute the same array over the extended reals.

  Both take a batch of sixteen four-channel 512 x 512 images. Each channel is given a one-pixel border of zeros, and
  for every image, colour channel c in {0, 1, 2} and pixel (h, w) the result is

      sum over 0 <= i, j <= 2 of  colour_c(h + i, w + j) * fourth(h + i, w + j),

  both factors read on the bordered 514 x 514 frame: the fourth channel's own 3 x 3 neighbourhood is the filter applied
  to each colour channel (Proof/Taps.lean states this function, `Cert.Taps.G`).

  The kernel handles one image per grid point. It builds the bordered channels in a scratch buffer (a fill with zeros,
  then the image written into the interior: Proof/Scratch.lean), reads the colour slabs and the fourth-channel slab
  back, and adds the nine shifted slab products in reading order (Proof/KernelBlock.lean); the sixteen output blocks
  tile the result array (Proof/KernelArray.lean). The reference pads the colour channels and the fourth channel with
  zeros, stacks the nine shifted sub-images of each along a new axis, multiplies the two stacks and sums over that axis
  starting from zero (Proof/RefValue.lean). The two sides add the same nine products; they differ only in the order and
  grouping of the additions and in a leading zero, and addition of extended reals is commutative and associative with
  no exception at the infinities. So the agreement holds for every input, finite or not, and the precondition is never
  opened. The idealized kernel is the kernel's own text read over the extended reals: the idealization rewrote nothing,
  so there is nothing to preserve beyond that. Each program runs to completion without a fault and leaves its argument
  array unchanged.
-/
import proofs.«127842_j6313601925505_2_alg».proof.Defs
import proofs.«127842_j6313601925505_2_alg».proof.Proof.Gen.Kernel
import proofs.«127842_j6313601925505_2_alg».proof.Proof.Gen.Kernel.Skeleton
import proofs.«127842_j6313601925505_2_alg».proof.Proof.Gen.Kernel.Launch
import proofs.«127842_j6313601925505_2_alg».proof.Proof.Gen.Kernel.Points
import proofs.«127842_j6313601925505_2_alg».proof.Proof.Gen.Kernel.Frame
import proofs.«127842_j6313601925505_2_alg».proof.Proof.Gen.KernelIdeal
import proofs.«127842_j6313601925505_2_alg».proof.Proof.Gen.KernelIdeal.Skeleton
import proofs.«127842_j6313601925505_2_alg».proof.Proof.Gen.KernelIdeal.Launch
import proofs.«127842_j6313601925505_2_alg».proof.Proof.Gen.KernelIdeal.Points
import proofs.«127842_j6313601925505_2_alg».proof.Proof.Gen.KernelIdeal.Frame
import proofs.«127842_j6313601925505_2_alg».proof.Proof.Gen.ReferenceIdeal
import proofs.«127842_j6313601925505_2_alg».proof.Proof.Gen.Pre_finite_inputs
import proofs.«127842_j6313601925505_2_alg».proof.Proof.Gen.KernelIdeal.Value
import proofs.«127842_j6313601925505_2_alg».proof.Proof.Gen.ReferenceIdeal.Run
import proofs.«127842_j6313601925505_2_alg».proof.Proof.Gen.ReferenceIdeal.Read
import proofs.«127842_j6313601925505_2_alg».proof.Proof.KernelArray
import proofs.«127842_j6313601925505_2_alg».proof.Proof.RefValue
import Idealize.ShloMosaic.Adequacy
import Idealize.ShloMosaic.Init

noncomputable section

namespace Cert.Proof

open Idealize.ShloMosaic Idealize.SL.Sem

/-- The kernel as printed runs to completion and leaves its argument unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument, both programs end with the result array at the window sum of that
    argument: the kernel by its sixteen blocks, the reference by its stacked planes summed from zero. -/
theorem algebraic : Cert.algebraic_KernelIdeal_ReferenceIdeal := by
  intro m ρ m' ρ' _ hagree
  refine ⟨fun c => Cert.Taps.G (B := 16)
    (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
